-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1 : Shape := ⟨1, ![1]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1 .f32) (main_arg3 : FVec F S256x128 .f32) (main_arg4 : FVec F S128 .f32) (main_arg5 : FVec F S128x128 .f32) (main_arg6 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1 : Shape := ⟨1, ![1]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 76
  | .vmem => 11
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S_, .f32⟩
  | .hbm, ⟨25, _⟩ => ⟨S1700000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S1x128, .f32⟩
  | .hbm, ⟨75, _⟩ => ⟨S100000x128, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S1x128, .f32⟩
  | .local _ .vmem, ⟨9, _⟩ => ⟨S10000x128, .f32⟩
  | .local _ .vmem, ⟨10, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S128_S1x128 : S128.ShapeCasts S1x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1 : Shape := ⟨1, ![1]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S_, .i32⟩
  | .hbm, ⟨17, _⟩ => ⟨S1700000, .i32⟩
  | .hbm, ⟨18, _⟩ => ⟨S1700000, .i1⟩
  | .hbm, ⟨19, _⟩ => ⟨S_, .i32⟩
  | .hbm, ⟨20, _⟩ => ⟨S1700000, .i32⟩
  | .hbm, ⟨21, _⟩ => ⟨S1700000, .i32⟩
  | .hbm, ⟨22, _⟩ => ⟨S1700000, .i32⟩
  | .hbm, ⟨23, _⟩ => ⟨S1700000x1, .i32⟩
  | .hbm, ⟨24, _⟩ => ⟨S_, .f32⟩
  | .hbm, ⟨25, _⟩ => ⟨S1700000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S100000x128, .f32⟩
  | .hbm, ⟨55, _⟩ => ⟨S_, .i32⟩
  | .hbm, ⟨56, _⟩ => ⟨S1700000, .i32⟩
  | .hbm, ⟨57, _⟩ => ⟨S1700000, .i1⟩
  | .hbm, ⟨58, _⟩ => ⟨S_, .i32⟩
  | .hbm, ⟨59, _⟩ => ⟨S1700000, .i32⟩
  | .hbm, ⟨60, _⟩ => ⟨S1700000, .i32⟩
  | .hbm, ⟨61, _⟩ => ⟨S1700000, .i32⟩
  | .hbm, ⟨62, _⟩ => ⟨S1700000x1, .i32⟩
  | .hbm, ⟨63, _⟩ => ⟨S1700000x128, .f32⟩
  | .hbm, ⟨64, _⟩ => ⟨S1700000x1, .f32⟩
  | .hbm, ⟨65, _⟩ => ⟨S1700000x128, .f32⟩
  | .hbm, ⟨66, _⟩ => ⟨S1700000x128, .f32⟩
  | .hbm, ⟨67, _⟩ => ⟨S_, .f32⟩
  | .hbm, ⟨68, _⟩ => ⟨S100000x128, .f32⟩
  | .hbm, ⟨69, _⟩ => ⟨S1700000x1, .i32⟩
  | .hbm, ⟨70, _⟩ => ⟨S100000x128, .f32⟩
  | .hbm, ⟨71, _⟩ => ⟨S1x128, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_c_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Gcn.lean ====
/-
  The graph convolution both programs apply between their two matrix products, as functions of the edge list
  and of the projected features.

  An edge list e : 2 × 1600000 gives the source row and the target row; every node is appended once to each
  (the self-loops), so both lists have 1700000 entries. The degree of a node is the number of list entries that
  target it (a scatter-add of ones), its weight is degree^(-1/2) where the degree is positive and 0 elsewhere, and
  an edge's coefficient is the product of its two endpoints' weights. The aggregation of features h : 100000 × 128 adds,
  into the row of each edge's target, the edge's coefficient times the source's row of h, and then adds the bias b to
  every row. An index list is brought into 0 … 99999 (a negative entry counts from the end) before it addresses h or the
  weights; the target list addresses the scatter as it is.
-/
import proofs.«137812_j12850542150399_1_alg».proof.Proof.Gen.ReferenceIdeal

noncomputable section

namespace Cert.Gcn

open Cert.ReferenceIdeal Cert.ReferenceIdeal.Gen Idealize.ShloMosaic Idealize.ShloMosaic.TcCoe Idealize.SL.Sem

variable {F : FTy → Type} [FloatOps F]

/-- The sources of the edges, then every node once. -/
def src (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The targets of the edges, then every node once. -/
def dst (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- An index list as a column of start indices, a negative entry counted from the end of the 100000 rows. -/
def wrap (v : IVec S1700000 32) : IVec S1700000x1 32 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- The number of list entries that target each node. -/
def deg (e : IVec S2x1600000 32) : FVec F S100000 .f32 :=
  Host.scatterAdd scatter_S100000_S1700000x1_S1700000_n_0_0_1 (broadcastInDim S100000 ![] bcast_S_S100000 (constant S_ .f32 0x00000000#32)) (wrap (dst e)) (broadcastInDim S1700000 ![] bcast_S_S1700000 (constant S_ .f32 0x3F800000#32))

/-- A node's weight from the sign test of its degree, the degree's inverse square root and the zero it is replaced
    by where the test fails. -/
def dinvOf (pos : IVec S100000 1) (r : FVec F S100000 .f32) (z : FVec F S_ .f32) : FVec F S100000 .f32 :=
  select pos r (broadcastInDim S100000 ![] bcast_S_S100000 (id z))

/-- degree^(-1/2) where the degree is positive, 0 elsewhere. -/
def dinv (e : IVec S2x1600000 32) : FVec F S100000 .f32 :=
  dinvOf (cmpf (F := F) .ogt (deg e) (broadcastInDim S100000 ![] bcast_S_S100000 (constant S_ .f32 0x00000000#32))) (Host.rsqrt (deg e)) (constant S_ .f32 0x00000000#32)

/-- The edges' coefficients from the nodes' weights and the two index lists: the product of the endpoints' weights. -/
def normOf (dv : FVec F S100000 .f32) (s d : IVec S1700000 32) : FVec F S1700000 .f32 :=
  mulf (Host.gather gather_S100000_S1700000x1_S1700000_n_0_n_n_0_1_1 dv (wrap s)) (Host.gather gather_S100000_S1700000x1_S1700000_n_0_n_n_0_1_1 dv (wrap d))

/-- An edge's coefficient: the product of its endpoints' weights. -/
def norm (e : IVec S2x1600000 32) : FVec F S1700000 .f32 :=
  normOf (dinv (F := F) e) (src e) (dst e)

/-- The aggregation from the two index lists and the coefficients: each target's row collects coefficient × the
    source's row of `h`, then the bias is added to every row. -/
def aggOf (h : FVec F S100000x128 .f32) (s d : IVec S1700000 32) (n : FVec F S1700000 .f32) (b : FVec F S128 .f32) :
    FVec F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 d) (mulf (Host.gather gather_S100000x128_S1700000x1_S1700000x128_1_0_n_n_0_1_1128 h (wrap s)) (broadcastInDim S1700000x128 ![0, 1] bcast_S1700000x1_S1700000x128_0_1 (broadcastInDim S1700000x1 ![0] bcast_S1700000_S1700000x1_0 n)))) (broadcastInDim S100000x128 ![0, 1] bcast_S1x128_S100000x128_0_1 (broadcastInDim S1x128 ![1] bcast_S128_S1x128_1 b))

/-- The aggregation of `h` along the edge list `e`, with bias `b`. -/
def agg (h : FVec F S100000x128 .f32) (e : IVec S2x1600000 32) (b : FVec F S128 .f32) : FVec F S100000x128 .f32 :=
  aggOf h (src e) (dst e) (norm (F := F) e) b

end Cert.Gcn

end
-- ==== Proof.Net.lean ====
/-
  The whole network both programs compute: a first linear layer x · W₁, the graph convolution's aggregation of it with
  the first bias, a second linear layer · W₂, and the second bias spread over the rows.
-/
import proofs.«137812_j12850542150399_1_alg».proof.Proof.Gcn

noncomputable section

namespace Cert.Gcn

open Cert.ReferenceIdeal Cert.ReferenceIdeal.Gen Idealize.ShloMosaic Idealize.ShloMosaic.TcCoe Idealize.SL.Sem

variable {F : FTy → Type} [FloatOps F]

/-- The two linear layers around the aggregation, as the reference composes them. -/
def net (x : FVec F S100000x256 .f32) (e : IVec S2x1600000 32) (w1 : FVec F S256x128 .f32) (b1 : FVec F S128 .f32)
    (w2 : FVec F S128x128 .f32) (b2 : FVec F S128 .f32) : FVec F S100000x128 .f32 :=
  addf (Host.dotGeneral dot_S100000x128_S128x128_S100000x128_1_0_0_1_n_n none (agg (Host.dotGeneral dot_S100000x256_S256x128_S100000x128_1_0_0_1_n_n none x w1) e b1) w2) (broadcastInDim S100000x128 ![0, 1] bcast_S1x128_S100000x128_0_1 (broadcastInDim S1x128 ![1] bcast_S128_S1x128_1 b2))

end Cert.Gcn

end
-- ==== Proof.RefResult.lean ====
/-
  The reference's result is the second linear layer applied to the aggregation of the first projection:
  (agg (x · W₁) e b₁) · W₂ + b₂, the bias spread over the rows.
-/
import proofs.«137812_j12850542150399_1_alg».proof.Proof.RefRun
import proofs.«137812_j12850542150399_1_alg».proof.Proof.Net

noncomputable section

namespace Cert.Gcn

open Cert.ReferenceIdeal Cert.ReferenceIdeal.Gen Idealize.ShloMosaic Idealize.ShloMosaic.TcCoe Idealize.SL.Sem

variable {F : FTy → Type} [FloatOps F]

set_option maxRecDepth 8192 in
/-- The reference run's composed term is `net` of the argument arrays. -/
theorem ref_result (m : (ℓ : Loc nD τ sig) → Buf (Elt F) ℓ) (c : Dev nD) :
    Cert.ReferenceIdeal.Value.res_main_v55 m c
      = net (F := F) (m ((c.tc : Thread nD τ).loc main_arg0)) (m ((c.tc : Thread nD τ).loc main_arg1)) (m ((c.tc : Thread nD τ).loc main_arg3))
          (m ((c.tc : Thread nD τ).loc main_arg4)) (m ((c.tc : Thread nD τ).loc main_arg5)) (m ((c.tc : Thread nD τ).loc main_arg6)) := by
  unfold Cert.ReferenceIdeal.Value.res_main_v55 net agg aggOf norm normOf dinv dinvOf deg wrap src dst
  rfl

end Cert.Gcn

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.Region0.lean ====
/-
  The first pallas_call, read as a value: whatever the device's buffers hold when it starts, the array it leaves in its
  result buffer is the whole product x · W₁.

  The grid has ten points; point t multiplies rows 10000·t … 10000·t + 9999 of x by the whole of W₁ into the zero
  accumulator and writes the result back as rows 10000·t … 10000·t + 9999. On the extended reals an entry of that
  block is ∑ k, x[10000·t + p, k] · W₁[k, q], which is the entry (10000·t + p, q) of the whole product; the ten blocks
  tile the 100000 rows.
-/
import proofs.«137812_j12850542150399_1_alg».proof.Proof.Gen.KernelIdeal.Frame
import proofs.«137812_j12850542150399_1_alg».proof.Proof.Gen.ReferenceIdeal
import proofs.«137812_j12850542150399_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole product, in the reference program's own spelling of it. -/
abbrev whole (x : FVec Ideal S100000x256 .f32) (w : FVec Ideal S256x128 .f32) : FVec Ideal S100000x128 .f32 :=
  Host.dotGeneral Cert.ReferenceIdeal.dot_S100000x256_S256x128_S100000x128_1_0_0_1_n_n none x w

/-- An entry of the whole product is the sum over the shared coordinate. -/
theorem whole_apply (x : FVec Ideal S100000x256 .f32) (w : FVec Ideal S256x128 .f32) (P : Fin 100000) (q : Fin 128) :
    whole x w (ix2 P q) = ∑ k : Fin 256, x (ix2 P k) * w (ix2 k q) :=
  PlainDot.dotGeneral_apply 100000 256 128 none _ x w P q

/-- An entry of what the body stores: the block of rows times the whole of W₁, the accumulator being zero. -/
theorem stored_apply (x0 : Vec Ideal S10000x256 .f32) (x1 : Vec Ideal S256x128 .f32) (p : Fin 10000) (q : Fin 128) :
    k0_pay1 x0 x1 (ix2 p q) = ∑ k : Fin 256, x0 (ix2 p k) * x1 (ix2 k q) := by
  unfold k0_pay1
  exact PlainDot.matmul_zero_apply 10000 256 128 none x0 x1 p q

/-- The printed index maps, decided over the ten points: x and the result move down one block of rows per point,
    W₁ stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of point t's block of x is row 10000·t + p of x. -/
theorem block_x (c : Dev nD) (t : Fin cfg0.N) (p : Fin 10000) (k : Fin 256) (h : t.val * 10000 + p.val < 100000) :
    iblk0 V c 0 t (ix2 p k) = V c main_arg0 (ix2 ⟨t.val * 10000 + p.val, h⟩ k) := by
  show V c main_arg0 (((cfg0.win 0).blk t).view.emb (ix2 p k)) = V c main_arg0 (ix2 ⟨t.val * 10000 + p.val, h⟩ k)
  refine congrArg (V c main_arg0) ?_
  obtain ⟨e0, e1, -, -, -, -⟩ := index_facts t
  funext a; apply Fin.ext
  match a with
  | ⟨0, _⟩ => show win0_0.index t (0 : Fin 2) * 10000 + 1 * p.val = t.val * 10000 + p.val; omega
  | ⟨1, _⟩ => show win0_0.index t (1 : Fin 2) * 256 + 1 * k.val = k.val; omega

/-- Every point's block of W₁ is W₁. -/
theorem block_w (c : Dev nD) (t : Fin cfg0.N) (k : Fin 256) (q : Fin 128) :
    iblk0 V c 1 t (ix2 k q) = V c main_arg3 (ix2 k q) := by
  show V c main_arg3 (((cfg0.win 1).blk t).view.emb (ix2 k q)) = V c main_arg3 (ix2 k q)
  refine congrArg (V c main_arg3) ?_
  obtain ⟨-, -, e2, e3, -, -⟩ := index_facts t
  funext a; apply Fin.ext
  match a with
  | ⟨0, _⟩ => show win0_1.index t (0 : Fin 2) * 256 + 1 * k.val = k.val; omega
  | ⟨1, _⟩ => show win0_1.index t (1 : Fin 2) * 128 + 1 * q.val = q.val; omega

/-- Entry (p, q) of point t's block of the result array sits at (10000·t + p, q). -/
theorem block_out (t : Fin cfg0.N) (p : Fin 10000) (q : Fin 128) (h : t.val * 10000 + p.val < 100000) :
    ((cfg0.win 2).blk t).view.emb (ix2 p q) = ix2 ⟨t.val * 10000 + p.val, h⟩ q := by
  obtain ⟨-, -, -, -, e4, e5⟩ := index_facts t
  funext a; apply Fin.ext
  match a with
  | ⟨0, _⟩ => show win0_2.index t (0 : Fin 2) * 10000 + 1 * p.val = t.val * 10000 + p.val; omega
  | ⟨1, _⟩ => show win0_2.index t (1 : Fin 2) * 128 + 1 * q.val = q.val; omega

/-- What point t writes back is block t of the whole product of the arrays the region finds. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero hz]
  simp only [View.ld_unit_zero (S := S10000x256) hz, View.ld_unit_zero (S := S256x128) hz]
  funext j
  obtain ⟨p, q, rfl⟩ : ∃ (p : Fin 10000) (q : Fin 128), j = ix2 p q := ⟨j 0, j 1, eq_ix2 j⟩
  have ht : t.val < 10 := by have h := t.isLt; have hN : grid0.N = 10 := N_0; exact hN ▸ h
  have hp : p.val < 10000 := p.isLt
  have hP : t.val * 10000 + p.val < 100000 := by omega
  show k0_pay1 (iblk0 V c 0 t) (iblk0 V c 1 t) (ix2 p q)
    = whole (V c main_arg0) (V c main_arg3) (((cfg0.win 2).blk t).view.emb (ix2 p q))
  rw [block_out t p q hP]
  refine (stored_apply (iblk0 V c 0 t) (iblk0 V c 1 t) p q).trans ?_
  refine Eq.trans ?_ (whole_apply (V c main_arg0) (V c main_arg3) ⟨t.val * 10000 + p.val, hP⟩ q).symm
  refine Finset.sum_congr rfl fun k _ => ?_
  rw [block_x V c t p k hP, block_w V c t k q]

/-- An index of the result array is in point t's block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v35).slice (win0_2.rect t)).set ↔ _
  rw [View.set_slice_whole, Rect.mem_set_unit]
  exact Iff.rfl

/-- Row r of the result array is written back by point r / 10000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; omega⟩, rfl⟩
  obtain ⟨-, -, -, -, e4, e5⟩ := index_facts t
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The result array after the region is the whole product of the arrays the region finds. -/
theorem final (c : Dev nD) : (dat0 V c).arrAt 2 cfg0.N = whole (V c main_arg0) (V c main_arg3) :=
  (dat0 V c).arrAt_eq_of_cover 2 _ (fun t _ => flushed_eq V c t) covered

end Cert.KernelIdeal.Region0

end
-- ==== Proof.Region1.lean ====
/-
  The second pallas_call, read as a value: whatever the device's buffers hold when it starts, the array it leaves in
  its result buffer is h · W₂ with the one row of biases added to every row, h being the array in its first operand's
  buffer.

  The grid has ten points; point t multiplies rows 10000·t … 10000·t + 9999 of h by the whole of W₂ into the zero
  accumulator, adds the bias row to every row of the block and writes the block back as rows 10000·t … 10000·t + 9999.
  On the extended reals an entry of that block is (∑ k, h[10000·t + p, k] · W₂[k, q]) + b[0, q], the entry
  (10000·t + p, q) of the whole result; the ten blocks tile the 100000 rows.
-/
import proofs.«137812_j12850542150399_1_alg».proof.Proof.Gen.KernelIdeal.Frame
import proofs.«137812_j12850542150399_1_alg».proof.Proof.Gen.ReferenceIdeal
import proofs.«137812_j12850542150399_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole result, in the reference program's own spelling of a product plus a row spread over the rows. -/
abbrev whole (h : FVec Ideal S100000x128 .f32) (w : FVec Ideal S128x128 .f32) (row : FVec Ideal S1x128 .f32) :
    FVec Ideal S100000x128 .f32 :=
  addf (Host.dotGeneral Cert.ReferenceIdeal.dot_S100000x128_S128x128_S100000x128_1_0_0_1_n_n none h w)
    (broadcastInDim Cert.ReferenceIdeal.S100000x128 ![0, 1] Cert.ReferenceIdeal.Gen.bcast_S1x128_S100000x128_0_1 row)

/-- A row spread over 100000 rows reads, at (P, q), the row at q. -/
theorem spread_apply (row : FVec Ideal S1x128 .f32) (P : Fin 100000) (q : Fin 128) :
    broadcastInDim Cert.ReferenceIdeal.S100000x128 ![0, 1] Cert.ReferenceIdeal.Gen.bcast_S1x128_S100000x128_0_1 row (ix2 P q)
      = row (ix2 (0 : Fin 1) q) :=
  broadcastInDim_apply ![0, 1] Cert.ReferenceIdeal.Gen.bcast_S1x128_S100000x128_0_1 row (ix2 P q) (ix2 (0 : Fin 1) q)
    (fun a => match a with
      | ⟨0, _⟩ => rfl
      | ⟨1, _⟩ => rfl)

/-- An entry of the whole result. -/
theorem whole_apply (h : FVec Ideal S100000x128 .f32) (w : FVec Ideal S128x128 .f32) (row : FVec Ideal S1x128 .f32)
    (P : Fin 100000) (q : Fin 128) :
    whole h w row (ix2 P q) = FloatOps.addf (F := Ideal) (φ := .f32) (∑ k : Fin 128, h (ix2 P k) * w (ix2 k q)) (row (ix2 (0 : Fin 1) q)) := by
  show FloatOps.addf (F := Ideal) (φ := .f32) (Host.dotGeneral Cert.ReferenceIdeal.dot_S100000x128_S128x128_S100000x128_1_0_0_1_n_n none h w (ix2 P q))
    (broadcastInDim Cert.ReferenceIdeal.S100000x128 ![0, 1] Cert.ReferenceIdeal.Gen.bcast_S1x128_S100000x128_0_1 row (ix2 P q)) = _
  rw [spread_apply row P q]
  exact congrArg (fun a => FloatOps.addf (F := Ideal) (φ := .f32) a (row (ix2 (0 : Fin 1) q))) (PlainDot.dotGeneral_apply 100000 128 128 none _ h w P q)

/-- An entry of what the body stores: the block of rows times the whole of W₂, the accumulator being zero, plus the
    bias row's entry of that column. -/
theorem stored_apply (x0 : Vec Ideal S10000x128 .f32) (x1 : Vec Ideal S128x128 .f32) (x2 : Vec Ideal S1x128 .f32)
    (p : Fin 10000) (q : Fin 128) :
    k1_pay1 x0 x1 x2 (ix2 p q) = FloatOps.addf (F := Ideal) (φ := .f32) (∑ k : Fin 128, x0 (ix2 p k) * x1 (ix2 k q)) (x2 (ix2 (0 : Fin 1) q)) := by
  unfold k1_pay1
  show FloatOps.addf (F := Ideal) (φ := .f32) (matmul dot_S10000x128_S128x128_S10000x128_1_0_0_1_n_n none (shapeCast S10000x128 x0 shapeCasts_S10000x128_S10000x128) x1 (constant S10000x128 .f32 0x00000000#32) (ix2 p q))
    (broadcastTo S10000x128 (shapeCast S1x128 x2 shapeCasts_S1x128_S1x128) broadcasts_S1x128_S10000x128 (ix2 p q)) = _
  rw [shapeCast_self, shapeCast_self, broadcastTo_1b_ab_apply x2 broadcasts_S1x128_S10000x128 p q]
  exact congrArg (fun a => FloatOps.addf (F := Ideal) (φ := .f32) a (x2 (ix2 (0 : Fin 1) q))) (PlainDot.matmul_zero_apply 10000 128 128 none x0 x1 p q)

/-- The printed index maps, decided over the ten points: h and the result move down one block of rows per point,
    W₂ and the bias row stay. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of point t's block of h is row 10000·t + p of h. -/
theorem block_h (c : Dev nD) (t : Fin cfg1.N) (p : Fin 10000) (k : Fin 128) (h : t.val * 10000 + p.val < 100000) :
    iblk1 V c 0 t (ix2 p k) = V c main_v51 (ix2 ⟨t.val * 10000 + p.val, h⟩ k) := by
  show V c main_v51 (((cfg1.win 0).blk t).view.emb (ix2 p k)) = V c main_v51 (ix2 ⟨t.val * 10000 + p.val, h⟩ k)
  refine congrArg (V c main_v51) ?_
  obtain ⟨e0, e1, -, -, -, -, -, -⟩ := index_facts t
  funext a; apply Fin.ext
  match a with
  | ⟨0, _⟩ => show win1_0.index t (0 : Fin 2) * 10000 + 1 * p.val = t.val * 10000 + p.val; omega
  | ⟨1, _⟩ => show win1_0.index t (1 : Fin 2) * 128 + 1 * k.val = k.val; omega

/-- Every point's block of W₂ is W₂. -/
theorem block_w (c : Dev nD) (t : Fin cfg1.N) (k : Fin 128) (q : Fin 128) :
    iblk1 V c 1 t (ix2 k q) = V c main_arg5 (ix2 k q) := by
  show V c main_arg5 (((cfg1.win 1).blk t).view.emb (ix2 k q)) = V c main_arg5 (ix2 k q)
  refine congrArg (V c main_arg5) ?_
  obtain ⟨-, -, e2, e3, -, -, -, -⟩ := index_facts t
  funext a; apply Fin.ext
  match a with
  | ⟨0, _⟩ => show win1_1.index t (0 : Fin 2) * 128 + 1 * k.val = k.val; omega
  | ⟨1, _⟩ => show win1_1.index t (1 : Fin 2) * 128 + 1 * q.val = q.val; omega

/-- Every point's block of the bias row is the bias row. -/
theorem block_row (c : Dev nD) (t : Fin cfg1.N) (q : Fin 128) :
    iblk1 V c 2 t (ix2 (0 : Fin 1) q) = V c main_v52 (ix2 (0 : Fin 1) q) := by
  show V c main_v52 (((cfg1.win 2).blk t).view.emb (ix2 (0 : Fin 1) q)) = V c main_v52 (ix2 (0 : Fin 1) q)
  refine congrArg (V c main_v52) ?_
  obtain ⟨-, -, -, -, e4, e5, -, -⟩ := index_facts t
  funext a; apply Fin.ext
  match a with
  | ⟨0, _⟩ => show win1_2.index t (0 : Fin 2) * 1 + 1 * (0 : Fin 1).val = (0 : Fin 1).val; omega
  | ⟨1, _⟩ => show win1_2.index t (1 : Fin 2) * 128 + 1 * q.val = q.val; omega

/-- Entry (p, q) of point t's block of the result array sits at (10000·t + p, q). -/
theorem block_out (t : Fin cfg1.N) (p : Fin 10000) (q : Fin 128) (h : t.val * 10000 + p.val < 100000) :
    ((cfg1.win 3).blk t).view.emb (ix2 p q) = ix2 ⟨t.val * 10000 + p.val, h⟩ q := by
  obtain ⟨-, -, -, -, -, -, e6, e7⟩ := index_facts t
  funext a; apply Fin.ext
  match a with
  | ⟨0, _⟩ => show win1_3.index t (0 : Fin 2) * 10000 + 1 * p.val = t.val * 10000 + p.val; omega
  | ⟨1, _⟩ => show win1_3.index t (1 : Fin 2) * 128 + 1 * q.val = q.val; omega

/-- What point t writes back is block t of the whole result of the arrays the region finds. -/
theorem flushed_eq (c : Dev nD) (t : Fin cfg1.N) :
    (dat1 V c).flushed 3 t
      = ((cfg1.win 3).blk t).view.read (Elt Ideal) (whole (V c main_v51) (V c main_arg5) (V c main_v52)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  have ht : t.val < 10 := by have h := t.isLt; have hN : grid1.N = 10 := N_1; exact hN ▸ h
  have hp : p.val < 10000 := p.isLt
  have hP : t.val * 10000 + p.val < 100000 := by omega
  show k1_pay1 (iblk1 V c 0 t) (iblk1 V c 1 t) (iblk1 V c 2 t) (ix2 p q)
    = whole (V c main_v51) (V c main_arg5) (V c main_v52) (((cfg1.win 3).blk t).view.emb (ix2 p q))
  rw [block_out t p q hP]
  refine (stored_apply (iblk1 V c 0 t) (iblk1 V c 1 t) (iblk1 V c 2 t) p q).trans ?_
  refine Eq.trans ?_ (whole_apply (V c main_v51) (V c main_arg5) (V c main_v52) ⟨t.val * 10000 + p.val, hP⟩ q).symm
  rw [block_row V c t q]
  refine congrArg (fun a => FloatOps.addf (F := Ideal) (φ := .f32) a (V c main_v52 (ix2 (0 : Fin 1) q))) ?_
  refine Finset.sum_congr rfl fun k _ => ?_
  rw [block_h V c t p k hP, block_w V c t k q]

/-- An index of the result array is in point t's block iff each coordinate is in the block's range on its axis. -/
theorem mem_block (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v53).slice (win1_3.rect t)).set ↔ _
  rw [View.set_slice_whole, Rect.mem_set_unit]
  exact Iff.rfl

/-- Row r of the result array is written back by point r / 10000. -/
theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : grid1.N = 10 := N_1
  obtain ⟨t, ht⟩ : ∃ t : Fin cfg1.N, t.val = (i 0).val / 10000 :=
    ⟨⟨(i 0).val / 10000, by show (i 0).val / 10000 < grid1.N; omega⟩, rfl⟩
  obtain ⟨-, -, -, -, -, -, e6, e7⟩ := index_facts t
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The result array after the region is the whole result of the arrays the region finds. -/
theorem final (c : Dev nD) :
    (dat1 V c).arrAt 3 cfg1.N = whole (V c main_v51) (V c main_arg5) (V c main_v52) :=
  (dat1 V c).arrAt_eq_of_cover 3 _ (fun t _ => flushed_eq V c t) covered

end Cert.KernelIdeal.Region1

end
-- ==== Proof.HostK.lean ====
/-
  What the kernel program's host operations compute, over ANY contents `W` of the device's buffers when a stretch of
  them starts: the index lists, the edge coefficients and the aggregation are the graph convolution's functions
  (`Cert.Gcn`) of the buffers the stretch reads, and the buffers it does not write keep their contents.
-/
import proofs.«137812_j12850542150399_1_alg».proof.Proof.Gen.KernelIdeal.Launch
import proofs.«137812_j12850542150399_1_alg».proof.Proof.Gcn
import Idealize.ShloMosaic.Lib.StableHlo.Run

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]
variable (W : Valuation τ sig (Elt F))

/-- The buffers' contents after the three stretches of host operations before the first pallas_call. -/
abbrev before (W : Valuation τ sig (Elt F)) : Valuation τ sig (Elt F) :=
  after hostOps0_2 (after hostOps0_1 (after hostOps0 W))

/-! ## Before the first pallas_call: the two index lists and the edges' coefficients -/

theorem before_src : before W (Proc.devRef .tc main_v5) = Cert.Gcn.src (W (Proc.devRef .tc main_arg1)) := by
  after_results; rfl

theorem before_dst : before W (Proc.devRef .tc main_v6) = Cert.Gcn.dst (W (Proc.devRef .tc main_arg1)) := by
  after_results; rfl

theorem before_norm : before W (Proc.devRef .tc main_v34) = Cert.Gcn.norm (F := F) (W (Proc.devRef .tc main_arg1)) := by
  after_results_simp; rfl

theorem before_arg0 : before W (Proc.devRef .tc main_arg0) = W (Proc.devRef .tc main_arg0) := by after_results
theorem before_arg3 : before W (Proc.devRef .tc main_arg3) = W (Proc.devRef .tc main_arg3) := by after_results
theorem before_arg4 : before W (Proc.devRef .tc main_arg4) = W (Proc.devRef .tc main_arg4) := by after_results
theorem before_arg5 : before W (Proc.devRef .tc main_arg5) = W (Proc.devRef .tc main_arg5) := by after_results
theorem before_arg6 : before W (Proc.devRef .tc main_arg6) = W (Proc.devRef .tc main_arg6) := by after_results

/-! ## Between the two pallas_calls: the aggregation, and the second bias as one row -/

theorem between_agg : after hostOps1 W (Proc.devRef .tc main_v51)
    = Cert.Gcn.aggOf (F := F) (W (Proc.devRef .tc main_v35)) (W (Proc.devRef .tc main_v5)) (W (Proc.devRef .tc main_v6))
        (W (Proc.devRef .tc main_v34)) (W (Proc.devRef .tc main_arg4)) := by
  after_results_simp; rfl

theorem between_row : after hostOps1 W (Proc.devRef .tc main_v52)
    = shapeCast S1x128 (W (Proc.devRef .tc main_arg6)) shapeCasts_S128_S1x128 := by
  after_results; rfl

theorem between_arg5 : after hostOps1 W (Proc.devRef .tc main_arg5) = W (Proc.devRef .tc main_arg5) := by after_results

end Cert.KernelIdeal.HostVal

end
-- ==== Proof.KernelValue.lean ====
/-
  The kernel program's result, read off its run: at the extended reals the result buffer ends holding the network
  (`Cert.Gcn.net`) of the argument arrays.

  The run passes six boundaries. Before the first pallas_call the host operations leave the two index lists and the
  edges' coefficients, functions of the edge list alone; the first pallas_call leaves the whole product x · W₁; between
  the two calls the host operations aggregate that product along the edges and add the first bias, and lay the second
  bias out as one row; the second pallas_call leaves (that aggregate) · W₂ plus the row on every row. Each step is a
  statement about arbitrary buffer contents at its start, so the steps compose by substitution.
-/
import proofs.«137812_j12850542150399_1_alg».proof.Proof.FrameKept
import proofs.«137812_j12850542150399_1_alg».proof.Proof.Region0
import proofs.«137812_j12850542150399_1_alg».proof.Proof.Region1
import proofs.«137812_j12850542150399_1_alg».proof.Proof.HostK
import proofs.«137812_j12850542150399_1_alg».proof.Proof.Net
import Idealize.ShloMosaic.Lib.ValueLayout

set_option maxRecDepth 16384

noncomputable section

namespace Cert.KernelIdeal.Whole

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- A length-128 vector laid out as one row is the same array whether it is cast or spread along the new unit axis. -/
theorem row_eq (b : FVec Ideal S128 .f32) :
    shapeCast S1x128 b shapeCasts_S128_S1x128
      = broadcastInDim Cert.ReferenceIdeal.S1x128 ![1] Cert.ReferenceIdeal.Gen.bcast_S128_S1x128_1 b := by
  funext i
  obtain ⟨u, q, rfl⟩ : ∃ (u : Fin 1) (q : Fin 128), i = ix2 u q := ⟨i 0, i 1, eq_ix2 i⟩
  rw [shapeCast_a_1a_apply b shapeCasts_S128_S1x128 u q]
  exact (broadcastInDim_apply ![1] Cert.ReferenceIdeal.Gen.bcast_S128_S1x128_1 b (ix2 u q) (ix1 q)
    (fun a => match a with | ⟨0, _⟩ => rfl)).symm

/-- The result buffer's contents at the last boundary of the run are the network of the argument arrays. -/
theorem result (c : Dev nD) :
    W6 m ρ c (Proc.devRef .tc main_v53)
      = Cert.Gcn.net (F := Ideal) (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6)) := by
  -- the second pallas_call
  have h53 : W6 m ρ c (Proc.devRef .tc main_v53)
      = Region1.whole (V5 m ρ c main_v51) (V5 m ρ c main_arg5) (V5 m ρ c main_v52) :=
    (W6_arr m ρ c 3).trans (Region1.final (V5 m ρ) c)
  -- the host operations between the two calls
  have h51 : V5 m ρ c main_v51
      = Cert.Gcn.aggOf (F := Ideal) (W4 m ρ c (Proc.devRef .tc main_v35)) (W4 m ρ c (Proc.devRef .tc main_v5))
          (W4 m ρ c (Proc.devRef .tc main_v6)) (W4 m ρ c (Proc.devRef .tc main_v34)) (W4 m ρ c (Proc.devRef .tc main_arg4)) :=
    HostVal.between_agg (W4 m ρ c)
  have h52 : V5 m ρ c main_v52 = shapeCast S1x128 (W4 m ρ c (Proc.devRef .tc main_arg6)) shapeCasts_S128_S1x128 :=
    HostVal.between_row (W4 m ρ c)
  have h55 : V5 m ρ c main_arg5 = W4 m ρ c (Proc.devRef .tc main_arg5) := HostVal.between_arg5 (W4 m ρ c)
  -- the first pallas_call: its result, and the buffers it leaves alone
  have h35 : W4 m ρ c (Proc.devRef .tc main_v35) = Region0.whole (V3 m ρ c main_arg0) (V3 m ρ c main_arg3) :=
    (W4_arr m ρ c 2).trans (Region0.final (V3 m ρ) c)
  have k5 : W4 m ρ c (Proc.devRef .tc main_v5) = W3 m ρ c (Proc.devRef .tc main_v5) := W4_of_ne m ρ c main_v5 (by decide)
  have k6 : W4 m ρ c (Proc.devRef .tc main_v6) = W3 m ρ c (Proc.devRef .tc main_v6) := W4_of_ne m ρ c main_v6 (by decide)
  have k34 : W4 m ρ c (Proc.devRef .tc main_v34) = W3 m ρ c (Proc.devRef .tc main_v34) := W4_of_ne m ρ c main_v34 (by decide)
  have ka4 : W4 m ρ c (Proc.devRef .tc main_arg4) = W3 m ρ c (Proc.devRef .tc main_arg4) := W4_of_ne m ρ c main_arg4 (by decide)
  have ka5 : W4 m ρ c (Proc.devRef .tc main_arg5) = W3 m ρ c (Proc.devRef .tc main_arg5) := W4_of_ne m ρ c main_arg5 (by decide)
  have ka6 : W4 m ρ c (Proc.devRef .tc main_arg6) = W3 m ρ c (Proc.devRef .tc main_arg6) := W4_of_ne m ρ c main_arg6 (by decide)
  -- the host operations before the first call
  have b5 : W3 m ρ c (Proc.devRef .tc main_v5) = Cert.Gcn.src (m ((c : Thread nD τ).loc main_arg1)) :=
    HostVal.before_src (W0 m ρ c)
  have b6 : W3 m ρ c (Proc.devRef .tc main_v6) = Cert.Gcn.dst (m ((c : Thread nD τ).loc main_arg1)) :=
    HostVal.before_dst (W0 m ρ c)
  have b34 : W3 m ρ c (Proc.devRef .tc main_v34) = Cert.Gcn.norm (F := Ideal) (m ((c : Thread nD τ).loc main_arg1)) :=
    HostVal.before_norm (W0 m ρ c)
  have b0 : V3 m ρ c main_arg0 = m ((c : Thread nD τ).loc main_arg0) := HostVal.before_arg0 (W0 m ρ c)
  have b3 : V3 m ρ c main_arg3 = m ((c : Thread nD τ).loc main_arg3) := HostVal.before_arg3 (W0 m ρ c)
  have b4 : W3 m ρ c (Proc.devRef .tc main_arg4) = m ((c : Thread nD τ).loc main_arg4) := HostVal.before_arg4 (W0 m ρ c)
  have bb5 : W3 m ρ c (Proc.devRef .tc main_arg5) = m ((c : Thread nD τ).loc main_arg5) := HostVal.before_arg5 (W0 m ρ c)
  have bb6 : W3 m ρ c (Proc.devRef .tc main_arg6) = m ((c : Thread nD τ).loc main_arg6) := HostVal.before_arg6 (W0 m ρ c)
  rw [h53, h51, h52, h55, h35, k5, k6, k34, ka4, ka5, ka6, b5, b6, b34, b0, b3, b4, bb5, bb6, row_eq]
  rfl

/-- The kernel program's run with its result named: every weakly fair execution terminates, nothing faulting, with the
    result buffer at the network of the argument arrays and the argument arrays as launched. -/
theorem run : θ_run defs (onTc (τ := τ) (main (F := Ideal))) ⟨m, fun _ => 0, ρ⟩ (fun r => ∀ c : Dev nD,
      r.2.mem ((c.tc : Thread nD τ).loc main_v53)
        = Cert.Gcn.net (F := Ideal) (m ((c : Thread nD τ).loc main_arg0)) (m ((c : Thread nD τ).loc main_arg1))
            (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Cert.KernelIdeal.GenP.frame_kept m ρ)

end Cert.KernelIdeal.Whole

end
-- ==== Proof.lean ====
/-
  The certificate of the two-layer graph network: a linear layer x · W₁, the graph convolution's aggregation of it along
  the edge list (self-loops added, each edge weighted by the inverse square roots of its endpoints' degrees, summed
  into the targets' rows, the first bias added), and a second linear layer · W₂ + b₂.

  The kernel program computes the two linear layers in pallas_calls that walk the 100000 rows in ten blocks and
  multiply each block into a zero accumulator; the reference computes them as whole products. Everything between the
  two layers is the same host operations in both programs. On the extended reals a block of rows of the product is the
  block of the whole product, and a product into the zero accumulator is the product, so both result arrays are the one
  function `Cert.Gcn.net` of the argument arrays; no law that needs finiteness is used, and the precondition is never
  opened. The idealization rewrote nothing, so there is nothing to preserve.
-/
import proofs.«137812_j12850542150399_1_alg».proof.Defs
import proofs.«137812_j12850542150399_1_alg».proof.Proof.Gen.Kernel
import proofs.«137812_j12850542150399_1_alg».proof.Proof.Gen.Kernel.Frame
import proofs.«137812_j12850542150399_1_alg».proof.Proof.Gen.KernelIdeal
import proofs.«137812_j12850542150399_1_alg».proof.Proof.Gen.KernelIdeal.Frame
import proofs.«137812_j12850542150399_1_alg».proof.Proof.Gen.ReferenceIdeal
import proofs.«137812_j12850542150399_1_alg».proof.Proof.Gen.Pre_finite_inputs
import proofs.«137812_j12850542150399_1_alg».proof.Proof.RefRun
import proofs.«137812_j12850542150399_1_alg».proof.Proof.RefResult
import proofs.«137812_j12850542150399_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with their result array at the network of their argument arrays, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, -, e3, e4, e5, e6⟩ := hagree c
  rw [Cert.Gcn.ref_result, e0, e1, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
